-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S16777188x8 : Shape := ⟨2, ![16777188, 8]⟩
abbrev S16384 : Shape := ⟨1, ![16384]⟩
abbrev S16384x8 : Shape := ⟨2, ![16384, 8]⟩
abbrev S16380 : Shape := ⟨1, ![16380]⟩
abbrev S4 : Shape := ⟨1, ![4]⟩
abbrev S16376 : Shape := ⟨1, ![16376]⟩
abbrev S8 : Shape := ⟨1, ![8]⟩
abbrev S16372 : Shape := ⟨1, ![16372]⟩
abbrev S12 : Shape := ⟨1, ![12]⟩
abbrev S16368 : Shape := ⟨1, ![16368]⟩
abbrev S16 : Shape := ⟨1, ![16]⟩
abbrev S16364 : Shape := ⟨1, ![16364]⟩
abbrev S20 : Shape := ⟨1, ![20]⟩
abbrev S16360 : Shape := ⟨1, ![16360]⟩
abbrev S24 : Shape := ⟨1, ![24]⟩
abbrev S16356 : Shape := ⟨1, ![16356]⟩
abbrev S28 : Shape := ⟨1, ![28]⟩
abbrev S1x16384 : Shape := ⟨2, ![1, 16384]⟩
abbrev S8x16384 : Shape := ⟨2, ![8, 16384]⟩

abbrev nBuf : Space → Nat
  | .hbm => 2
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777188x8, .f32⟩
  | .local _ .vmem, ⟨0, _⟩ => ⟨S16384, .f32⟩
  | .local _ .vmem, ⟨1, _⟩ => ⟨S16384, .f32⟩
  | .local _ .vmem, ⟨2, _⟩ => ⟨S16384, .f32⟩
  | .local _ .vmem, ⟨3, _⟩ => ⟨S16384, .f32⟩
  | .local _ .vmem, ⟨4, _⟩ => ⟨S16384x8, .f32⟩
  | .local _ .vmem, ⟨5, _⟩ => ⟨S16384x8, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c1023_i32 : BitVec 32 := 1023#32
  let v1 : BitVec 32 := Scalar.minsi v0 c1023_i32
  let c0_i32 : BitVec 32 := 0#32
  ![v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16384_S16384_0 : ∀ a, (![0] : Fin 1 → Nat) a + S16384.size a ≤ S16384.size a
  h_S16384 : 0 < S16384.numel
  slices_S16384_o4_S16380 : S16384.Slices ![4] S16380
  slices_S16384_o0_S4 : S16384.Slices ![0] S4
  concatenates_S16380_S4_S16384_d0 : Shape.Concatenates [S16380, S4] S16384 0
  slices_S16384_o8_S16376 : S16384.Slices ![8] S16376
  slices_S16384_o0_S8 : S16384.Slices ![0] S8
  concatenates_S16376_S8_S16384_d0 : Shape.Concatenates [S16376, S8] S16384 0
  slices_S16384_o12_S16372 : S16384.Slices ![12] S16372
  slices_S16384_o0_S12 : S16384.Slices ![0] S12
  concatenates_S16372_S12_S16384_d0 : Shape.Concatenates [S16372, S12] S16384 0
  slices_S16384_o16_S16368 : S16384.Slices ![16] S16368
  slices_S16384_o0_S16 : S16384.Slices ![0] S16
  concatenates_S16368_S16_S16384_d0 : Shape.Concatenates [S16368, S16] S16384 0
  slices_S16384_o20_S16364 : S16384.Slices ![20] S16364
  slices_S16384_o0_S20 : S16384.Slices ![0] S20
  concatenates_S16364_S20_S16384_d0 : Shape.Concatenates [S16364, S20] S16384 0
  slices_S16384_o24_S16360 : S16384.Slices ![24] S16360
  slices_S16384_o0_S24 : S16384.Slices ![0] S24
  concatenates_S16360_S24_S16384_d0 : Shape.Concatenates [S16360, S24] S16384 0
  slices_S16384_o28_S16356 : S16384.Slices ![28] S16356
  slices_S16384_o0_S28 : S16384.Slices ![0] S28
  concatenates_S16356_S28_S16384_d0 : Shape.Concatenates [S16356, S28] S16384 0
  shapeCasts_S16384_S1x16384 : S16384.ShapeCasts S1x16384
  concatenates_S1x16384_S1x16384_S1x16384_S1x16384_S1x16384_S1x16384_S1x16384_S1x16384_S8x16384_d0 : Shape.Concatenates [S1x16384, S1x16384, S1x16384, S1x16384, S1x16384, S1x16384, S1x16384, S1x16384] S8x16384 0
  transposes_S8x16384_p1_0_S16384x8 : S8x16384.Transposes [1, 0] S16384x8
  inb_S16384x8_S16384x8_0_0 : ∀ a, (![0, 0] : Fin 2 → Nat) a + S16384x8.size a ≤ S16384x8.size a
  h_S16384x8 : 0 < S16384x8.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S16777216.size a
  hwx0_0 : ∀ i : grid0.Coords, EltTy.bits .f32 = 32 ∨ (Rect.block (s := S16777216) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S16777216.size a
  hwx0_1 : ∀ i : grid0.Coords, EltTy.bits .f32 = 32 ∨ (Rect.block (s := S16777216) S16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384x8.size a < S16777188x8.size a
  hwx0_2 : ∀ i : grid0.Coords, EltTy.bits .f32 = 32 ∨ (Rect.unit (s := S16777188x8) (fun a => cc0_transform_2 i a * S16384x8.size a) (fun a => (Pipeline.Clip.of (cc0_transform_2 i a) (S16384x8.size a) (S16777188x8.size a)).extent (S16384x8.size a)) fun a => Pipeline.Clip.inb (Pipeline.Clip.ok_of (hstart0_2 i a))).WholeWords (EltTy.packing .f32)
  hwxs0_2 : ∀ i : grid0.Coords, EltTy.bits .f32 = 32 ∨ (Rect.unit (s := S16384x8) (fun _ => 0) (fun a => (Pipeline.Clip.of (cc0_transform_2 i a) (S16384x8.size a) (S16777188x8.size a)).extent (S16384x8.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpec (Memref.whole main_arg0) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S16384x8.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S16777188 : Shape := ⟨1, ![16777188]⟩
abbrev S16777188x1 : Shape := ⟨2, ![16777188, 1]⟩
abbrev S_ : Shape := ⟨0, ![]⟩
abbrev S8 : Shape := ⟨1, ![8]⟩
abbrev S1x8 : Shape := ⟨2, ![1, 8]⟩
abbrev S16777188x8 : Shape := ⟨2, ![16777188, 8]⟩
abbrev S16777188x8x1 : Shape := ⟨3, ![16777188, 8, 1]⟩

abbrev nBuf : Space → Nat
  | .hbm => 23
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777188, .i32⟩
  | .hbm, ⟨2, _⟩ => ⟨S16777188x1, .i32⟩
  | .hbm, ⟨3, _⟩ => ⟨S_, .i32⟩
  | .hbm, ⟨4, _⟩ => ⟨S16777188x1, .i32⟩
  | .hbm, ⟨5, _⟩ => ⟨S16777188x1, .i32⟩
  | .hbm, ⟨6, _⟩ => ⟨S8, .i32⟩
  | .hbm, ⟨7, _⟩ => ⟨S1x8, .i32⟩
  | .hbm, ⟨8, _⟩ => ⟨S_, .i32⟩
  | .hbm, ⟨9, _⟩ => ⟨S1x8, .i32⟩
  | .hbm, ⟨10, _⟩ => ⟨S1x8, .i32⟩
  | .hbm, ⟨11, _⟩ => ⟨S16777188x8, .i32⟩
  | .hbm, ⟨12, _⟩ => ⟨S16777188x8, .i32⟩
  | .hbm, ⟨13, _⟩ => ⟨S16777188x8, .i32⟩
  | .hbm, ⟨14, _⟩ => ⟨S_, .i32⟩
  | .hbm, ⟨15, _⟩ => ⟨S16777188x8, .i32⟩
  | .hbm, ⟨16, _⟩ => ⟨S16777188x8, .i1⟩
  | .hbm, ⟨17, _⟩ => ⟨S_, .i32⟩
  | .hbm, ⟨18, _⟩ => ⟨S16777188x8, .i32⟩
  | .hbm, ⟨19, _⟩ => ⟨S16777188x8, .i32⟩
  | .hbm, ⟨20, _⟩ => ⟨S16777188x8, .i32⟩
  | .hbm, ⟨21, _⟩ => ⟨S16777188x8x1, .i32⟩
  | .hbm, ⟨22, _⟩ => ⟨S16777188x8, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  bcast_S16777188_S16777188x1_0 : S16777188.BroadcastsInDim S16777188x1 (![0] : Fin 1 → Fin S16777188x1.rank)
  bcast_S_S16777188x1 : S_.BroadcastsInDim S16777188x1 (![] : Fin 0 → Fin S16777188x1.rank)
  bcast_S8_S1x8_1 : S8.BroadcastsInDim S1x8 (![1] : Fin 1 → Fin S1x8.rank)
  bcast_S_S1x8 : S_.BroadcastsInDim S1x8 (![] : Fin 0 → Fin S1x8.rank)
  bcast_S16777188x1_S16777188x8_0_1 : S16777188x1.BroadcastsInDim S16777188x8 (![0, 1] : Fin 2 → Fin S16777188x8.rank)
  bcast_S1x8_S16777188x8_0_1 : S1x8.BroadcastsInDim S16777188x8 (![0, 1] : Fin 2 → Fin S16777188x8.rank)
  bcast_S_S16777188x8 : S_.BroadcastsInDim S16777188x8 (![] : Fin 0 → Fin S16777188x8.rank)
  bcast_S16777188x8_S16777188x8x1_0_1 : S16777188x8.BroadcastsInDim S16777188x8x1 (![0, 1] : Fin 2 → Fin S16777188x8x1.rank)
  gather_S16777216_S16777188x8x1_S16777188x8_n_0_n_n_0_2_1_wf : GatherDims.WF S16777216 S16777188x8x1 S16777188x8 [] [0] [] [0] [] 2 ![1]

variable [Facts₀]

def gather_S16777216_S16777188x8x1_S16777188x8_n_0_n_n_0_2_1 : GatherDims S16777216 S16777188x8x1 S16777188x8 where
  offsetDims := []
  collapsedSliceDims := [0]
  operandBatchingDims := []
  startIndicesBatchingDims := []
  startIndexMap := [0]
  indexVectorDim := 2
  sliceSizes := ![1]
  wf := gather_S16777216_S16777188x8x1_S16777188x8_n_0_n_n_0_2_1_wf

class Facts : Prop extends Facts₀ where

variable [Facts]
-- ==== Proof.DelayBits.Data.lean ====
/-
  What the embedding kernel's three windows hold at each of its 1024 grid points.

  The series of 2^24 samples is cut into 1024 blocks of 16384. At point `t` the first input window
  stages block `t` of the series and the second input window stages block `min (t + 1) 1023` of the
  SAME series — the block that follows, except at the last point, where there is none and the last
  block is staged again. The output window's block at `t` is rows `16384 t … 16384 t + 16383` of the
  embedding, of which the last 28 (at `t = 1023`) lie past the result's end and are never written back.

  After the body the two input buffers hold what they held, and the output buffer holds the body's
  one stored value computed from them.
-/
import proofs.«179207_j40364102647834_2_alg».proof.Proof.Gen.Kernel.Launch
import proofs.«179207_j40364102647834_2_alg».proof.Proof.Gen.Kernel.Skeleton
import proofs.«179207_j40364102647834_2_alg».proof.Proof.Gen.Kernel.Points
import Idealize.ShloMosaic.Lib.Pipeline.Kit
import Idealize.ShloMosaic.Lib.Pipeline.Frame
import Idealize.ShloMosaic.Lib.Pipeline.FrameBody
import Idealize.ShloMosaic.Lib.Tactic

noncomputable section

namespace Cert.Kernel.Delay

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The proof's resource algebra: one copy of the transfer-rounds algebra. -/
abbrev EP : Emb (UR sig nD τ) (MT nD τ sig Unit (Elt F) ℕ (UR sig nD τ) ℕ) := emb₁

/-- The kernel calls no variant-bounded label. -/
abbrev 𝒱₀ : Variants := Variants.none

variable (m : (ℓ : Loc nD τ sig) → Buf (Elt F) ℓ)

/-- Block `t` of the series: what the first input window stages at point `t`. -/
def cur (c : Dev nD) (t : Fin cfg0.N) : S16384.Idx → Elt F .f32 :=
  (win0_0.blk t).view.read (Elt F) (m ((c : Thread nD τ).loc main_arg0))

/-- Block `min (t + 1) 1023` of the series: what the second input window stages at point `t`. -/
def nxt (c : Dev nD) (t : Fin cfg0.N) : S16384.Idx → Elt F .f32 :=
  (win0_1.blk t).view.read (Elt F) (m ((c : Thread nD τ).loc main_arg0))

/-- The proof data on device `c`: the arrays at their launch contents; after the body at point `t` the input
    buffers at their blocks and the output buffer at the stored value; no invariant, nothing owed; the series,
    read through two windows, held by each at one half of its share, the result at the full share. -/
def dats (_ : Fin 1) (c : Dev nD) : Dat τ (Elt F) Unit ℕ (UR sig nD τ) ℕ cfg0 c where
  A w := m ((cfg0.win w).arr.view.loc (c : Thread nD τ))
  after w t := match w with
    | ⟨0, _⟩ => cur m c t
    | ⟨1, _⟩ => nxt m c t
    | ⟨2, _⟩ => k0_pay1 (cur m c t) (nxt m c t)
  Φ _ := iprop(emp)
  q w := match w with
    | ⟨0, _⟩ => fullShare.left
    | ⟨1, _⟩ => fullShare.right
    | ⟨2, _⟩ => fullShare
  owed _ := 0

/-- The first input window is fetched at every point: its buffer holds block `t`. -/
theorem before_0 (c : Dev nD) (t : Fin cfg0.N) (d) :
    (dats m 0 c).before (0 : Fin 3) t d = cur m c t := by
  unfold Dat.before; rw [if_pos (fetch0_0 t)]; rfl

/-- The second input window is fetched wherever its block index moves; where it does not (the last point), the
    buffer still holds the block the point before left there, which is this point's block: either way its buffer
    holds block `min (t + 1) 1023`. -/
theorem before_1 (c : Dev nD) (t : Fin cfg0.N) (d) :
    (dats m 0 c).before (1 : Fin 3) t d = nxt m c t := by
  rw [(dats m 0 c).before_in_eq_fetched (1 : Fin 3) rfl (fun _ => rfl) (fun _ _ _ => rfl) (fun _ => rfl) t d]
  rfl

/-- The output window is written back at every point, so at every point its buffer is fresh. -/
theorem before_2 (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

end Cert.Kernel.Delay

end
-- ==== Proof.DelayBits.Body.lean ====
/-
  The kernel body at one grid point.

  The body loads its two input buffers whole, forms one value from them (slices, concatenations and a
  transpose: no arithmetic), loads the output buffer (a value it never uses) and stores the formed value
  over the whole output buffer. So whatever the three buffers hold when it starts, the input buffers end
  unchanged and the output buffer ends at the formed value of the two input buffers' contents.
-/
import proofs.«179207_j40364102647834_2_alg».proof.Proof.DelayBits.Data

noncomputable section

namespace Cert.Kernel.Delay

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-- The body on staging buffers `s0`, `s1` of the input windows and `s2` of the output window: two whole loads,
    the dead load of the output buffer, the whole store of the value formed from the two loads. -/
theorem sound_body (c : Dev nD) (E : Set ℕ) (i : grid0.Coords) (s0 s1 s2 : Fin 2)
    (X0 X1 : S16384.Idx → Elt F .f32) (X2 : S16384x8.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__tde_kernel i (stage0_0 s0) (hstage0_0 s0) (stage0_1 s1) (hstage0_1 s1) (stage0_2 s2) (hstage0_2 s2)) K := by
  -- every access is at offset zero and of the buffer's own size: a load reads the contents, the unmasked store
  -- writes the stored value, at whichever of its window's two buffers each memref is
  have hz1 : (![0] : Fin 1 → Nat) = fun _ => 0 := funext fun a => by fin_cases a; rfl
  have hz2 : (![0, 0] : Fin 2 → Nat) = fun _ => 0 := funext fun a => by fin_cases a <;> rfl
  have hr00 : (Memref.whole cc0_stg0_0 : Memref sig .tc _ _ _).view.readAt (Elt F) (Rect.unit (s := S16384) ![0] S16384.size
      inb_S16384_S16384_0).toLoadRect = id := funext (Memref.readAt_unit_zero (Elt F) cc0_stg0_0 hz1 _)
  have hr01 : (Memref.whole cc0_stg0_1 : Memref sig .tc _ _ _).view.readAt (Elt F) (Rect.unit (s := S16384) ![0] S16384.size
      inb_S16384_S16384_0).toLoadRect = id := funext (Memref.readAt_unit_zero (Elt F) cc0_stg0_1 hz1 _)
  have hr10 : (Memref.whole cc0_stg1_0 : Memref sig .tc _ _ _).view.readAt (Elt F) (Rect.unit (s := S16384) ![0] S16384.size
      inb_S16384_S16384_0).toLoadRect = id := funext (Memref.readAt_unit_zero (Elt F) cc0_stg1_0 hz1 _)
  have hr11 : (Memref.whole cc0_stg1_1 : Memref sig .tc _ _ _).view.readAt (Elt F) (Rect.unit (s := S16384) ![0] S16384.size
      inb_S16384_S16384_0).toLoadRect = id := funext (Memref.readAt_unit_zero (Elt F) cc0_stg1_1 hz1 _)
  have hw20 : ∀ f w, (((Memref.whole cc0_stg2_0).access (Rect.unit (s := S16384x8) ![0, 0] S16384x8.size inb_S16384x8_S16384x8_0_0)) :
      View sig .tc _ _ _).write (Elt F) f w Finset.univ = w := Memref.write_access_unit_zero_univ (Elt F) cc0_stg2_0 hz2 _
  have hw21 : ∀ f w, (((Memref.whole cc0_stg2_1).access (Rect.unit (s := S16384x8) ![0, 0] S16384x8.size inb_S16384x8_S16384x8_0_0)) :
      View sig .tc _ _ _).write (Elt F) f w Finset.univ = w := Memref.write_access_unit_zero_univ (Elt F) cc0_stg2_1 hz2 _
  fin_cases s0 <;> fin_cases s1 <;> fin_cases s2 <;>
  · simp only [owns_whole_eq, cc0__tde_kernel_eq_skeleton]; unfold cc0__tde_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    simp only [hr00, hr01, hr10, hr11, hw20, hw21, id_eq]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-- The body obligation at every point: the input buffers arrive holding their blocks and leave holding them;
    the output buffer arrives holding anything and leaves holding the value formed from the two blocks — which
    is all that is stated of it, on the rows that are written back. -/
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := F) c Set.univ (grid0.coords t) (cfg0.slots t 0) (cfg0.slots t 1) (cfg0.slots t 2)
    (cur m c t) (nxt m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexact H0
  isplitl [H1]
  · iexact H1
  · iexists k0_pay1 (cur m c t) (nxt m c t)
    change _ ⊢ owns (c : Thread nD τ) (stage0_2 (cfg0.slots t 2)) fullShare
      (win0_2.fill (α := Elt F .f32) (grid0.coords t) (k0_pay1 (cur m c t) (nxt m c t))
        (win0_2.cut (α := Elt F .f32) (grid0.coords t) (k0_pay1 (cur m c t) (nxt m c t))))
    rw [win0_2.fill_cut]; try iexact H2

end Cert.Kernel.Delay

end
-- ==== Proof.DelayBits.Run.lean ====
/-
  The whole run of the embedding kernel.

  The series is handed to the kernel twice, through two windows that read it at different blocks. Both
  only read, so each holds one half of the series' share for the whole run, and the halves rejoin at the
  end: the series ends as it began. The result array is held whole by its one window and ends at what
  the 1024 write-backs, in order, leave in it.
-/
import proofs.«179207_j40364102647834_2_alg».proof.Proof.DelayBits.Body
import Idealize.ShloMosaic.Lib.Pipeline.Launch

noncomputable section

namespace Cert.Kernel.Delay

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a duty token for every transfer issued. -/
def u₀ : UR sig nD τ := initOf (Pipeline.cells cfgs cellOf_inj) (Pipeline.launchToks cfgs cellOf_inj)

/-- At entry the two buffers behind the three windows — the series, the result — each whole at the full share,
    give each window its array at its share: the series' full share splits into the two halves the two reading
    windows hold. -/
theorem arrays_at_entry (c : Dev nD) :
    (Pipeline.arrBufs spec0 c (fun b => m ((c : Thread nD τ).loc b)) : sProp 𝕄)
      ⊢ (dats m 0 c).arrays ((dats m 0 c).arrAt · 0) := by
  have e : (dats m 0 c).arrays ((dats m 0 c).arrAt · 0)
      = bigSep Finset.univ fun w : Fin 3 => (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  have eB : (Pipeline.arrBufs spec0 c (fun b => m ((c : Thread nD τ).loc b)) : sProp 𝕄)
      = iprop((((c : Thread nD τ).loc main_arg0) ↦{fullShare} m ((c : Thread nD τ).loc main_arg0))
          ∗ (((c : Thread nD τ).loc main_v0) ↦{fullShare} m ((c : Thread nD τ).loc main_v0))) := by
    unfold Pipeline.arrBufs
    rw [show Finset.univ.image (Pipeline.arrRef spec0) = {main_arg0, main_v0} from by decide,
      bigSep_insert (by decide), bigSep_singleton]
    rfl
  rw [e, bigSep_W0, eB]
  iintro ⟨Hs, Ho⟩
  ihave Hs' := (pointsTo_share (PosShare.mem_left_op_right fullShare)).1 $$ Hs
  icases Hs' with ⟨H0, H1⟩
  isplitl [H0]; · iexact H0
  isplitl [H1]; · iexact H1
  iexact Ho

/-- An array's contents after the run, as the write-backs in point order leave them. -/
def finalA (c : Dev nD) (w : Fin cfg0.W) : Buf (Elt F) ((cfg0.win w).arr.view.loc (c : Thread nD τ)) :=
  (dats m 0 c).arrAt w cfg0.N

/-- The physical post: every window's array holds those contents. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- For any values, from any memory with zero counters: every weakly fair execution of the program terminates,
    faulting nowhere, with every window's array at the computed contents. -/
theorem run_main : θ_run defs (onTc (τ := τ) (main (F := F))) (s₀ m ρ) (QC m) :=
  Pipeline.θ_run_region_noSem_shared cfgs (dats m) () cellOf_inj (0 : Fin 1) winFacts₀0 EP defs₀ 𝒱₀ m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := arrays_at_entry m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The series is read only: after the run it holds what it held (read through either of its windows). -/
theorem finalA_series (c : Dev nD) : finalA m c (0 : Fin 3) = m ((c : Thread nD τ).loc main_arg0) :=
  (dats (F := F) m 0 c).arrAt_in (0 : Fin 3) rfl _

end Cert.Kernel.Delay

end
-- ==== Proof.DelayIdeal.Data.lean ====
/-
  What the embedding kernel's three windows hold at each of its 1024 grid points.

  The series of 2^24 samples is cut into 1024 blocks of 16384. At point `t` the first input window
  stages block `t` of the series and the second input window stages block `min (t + 1) 1023` of the
  SAME series — the block that follows, except at the last point, where there is none and the last
  block is staged again. The output window's block at `t` is rows `16384 t … 16384 t + 16383` of the
  embedding, of which the last 28 (at `t = 1023`) lie past the result's end and are never written back.

  After the body the two input buffers hold what they held, and the output buffer holds the body's
  one stored value computed from them.
-/
import proofs.«179207_j40364102647834_2_alg».proof.Proof.Gen.KernelIdeal.Launch
import proofs.«179207_j40364102647834_2_alg».proof.Proof.Gen.KernelIdeal.Skeleton
import proofs.«179207_j40364102647834_2_alg».proof.Proof.Gen.KernelIdeal.Points
import Idealize.ShloMosaic.Lib.Pipeline.Kit
import Idealize.ShloMosaic.Lib.Pipeline.Frame
import Idealize.ShloMosaic.Lib.Pipeline.FrameBody
import Idealize.ShloMosaic.Lib.Tactic

noncomputable section

namespace Cert.KernelIdeal.Delay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The proof's resource algebra: one copy of the transfer-rounds algebra. -/
abbrev EP : Emb (UR sig nD τ) (MT nD τ sig Unit (Elt F) ℕ (UR sig nD τ) ℕ) := emb₁

/-- The kernel calls no variant-bounded label. -/
abbrev 𝒱₀ : Variants := Variants.none

variable (m : (ℓ : Loc nD τ sig) → Buf (Elt F) ℓ)

/-- Block `t` of the series: what the first input window stages at point `t`. -/
def cur (c : Dev nD) (t : Fin cfg0.N) : S16384.Idx → Elt F .f32 :=
  (win0_0.blk t).view.read (Elt F) (m ((c : Thread nD τ).loc main_arg0))

/-- Block `min (t + 1) 1023` of the series: what the second input window stages at point `t`. -/
def nxt (c : Dev nD) (t : Fin cfg0.N) : S16384.Idx → Elt F .f32 :=
  (win0_1.blk t).view.read (Elt F) (m ((c : Thread nD τ).loc main_arg0))

/-- The proof data on device `c`: the arrays at their launch contents; after the body at point `t` the input
    buffers at their blocks and the output buffer at the stored value; no invariant, nothing owed; the series,
    read through two windows, held by each at one half of its share, the result at the full share. -/
def dats (_ : Fin 1) (c : Dev nD) : Dat τ (Elt F) Unit ℕ (UR sig nD τ) ℕ cfg0 c where
  A w := m ((cfg0.win w).arr.view.loc (c : Thread nD τ))
  after w t := match w with
    | ⟨0, _⟩ => cur m c t
    | ⟨1, _⟩ => nxt m c t
    | ⟨2, _⟩ => k0_pay1 (cur m c t) (nxt m c t)
  Φ _ := iprop(emp)
  q w := match w with
    | ⟨0, _⟩ => fullShare.left
    | ⟨1, _⟩ => fullShare.right
    | ⟨2, _⟩ => fullShare
  owed _ := 0

/-- The first input window is fetched at every point: its buffer holds block `t`. -/
theorem before_0 (c : Dev nD) (t : Fin cfg0.N) (d) :
    (dats m 0 c).before (0 : Fin 3) t d = cur m c t := by
  unfold Dat.before; rw [if_pos (fetch0_0 t)]; rfl

/-- The second input window is fetched wherever its block index moves; where it does not (the last point), the
    buffer still holds the block the point before left there, which is this point's block: either way its buffer
    holds block `min (t + 1) 1023`. -/
theorem before_1 (c : Dev nD) (t : Fin cfg0.N) (d) :
    (dats m 0 c).before (1 : Fin 3) t d = nxt m c t := by
  rw [(dats m 0 c).before_in_eq_fetched (1 : Fin 3) rfl (fun _ => rfl) (fun _ _ _ => rfl) (fun _ => rfl) t d]
  rfl

/-- The output window is written back at every point, so at every point its buffer is fresh. -/
theorem before_2 (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

end Cert.KernelIdeal.Delay

end
-- ==== Proof.DelayIdeal.Body.lean ====
/-
  The kernel body at one grid point.

  The body loads its two input buffers whole, forms one value from them (slices, concatenations and a
  transpose: no arithmetic), loads the output buffer (a value it never uses) and stores the formed value
  over the whole output buffer. So whatever the three buffers hold when it starts, the input buffers end
  unchanged and the output buffer ends at the formed value of the two input buffers' contents.
-/
import proofs.«179207_j40364102647834_2_alg».proof.Proof.DelayIdeal.Data

noncomputable section

namespace Cert.KernelIdeal.Delay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-- The body on staging buffers `s0`, `s1` of the input windows and `s2` of the output window: two whole loads,
    the dead load of the output buffer, the whole store of the value formed from the two loads. -/
theorem sound_body (c : Dev nD) (E : Set ℕ) (i : grid0.Coords) (s0 s1 s2 : Fin 2)
    (X0 X1 : S16384.Idx → Elt F .f32) (X2 : S16384x8.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__tde_kernel i (stage0_0 s0) (hstage0_0 s0) (stage0_1 s1) (hstage0_1 s1) (stage0_2 s2) (hstage0_2 s2)) K := by
  -- every access is at offset zero and of the buffer's own size: a load reads the contents, the unmasked store
  -- writes the stored value, at whichever of its window's two buffers each memref is
  have hz1 : (![0] : Fin 1 → Nat) = fun _ => 0 := funext fun a => by fin_cases a; rfl
  have hz2 : (![0, 0] : Fin 2 → Nat) = fun _ => 0 := funext fun a => by fin_cases a <;> rfl
  have hr00 : (Memref.whole cc0_stg0_0 : Memref sig .tc _ _ _).view.readAt (Elt F) (Rect.unit (s := S16384) ![0] S16384.size
      inb_S16384_S16384_0).toLoadRect = id := funext (Memref.readAt_unit_zero (Elt F) cc0_stg0_0 hz1 _)
  have hr01 : (Memref.whole cc0_stg0_1 : Memref sig .tc _ _ _).view.readAt (Elt F) (Rect.unit (s := S16384) ![0] S16384.size
      inb_S16384_S16384_0).toLoadRect = id := funext (Memref.readAt_unit_zero (Elt F) cc0_stg0_1 hz1 _)
  have hr10 : (Memref.whole cc0_stg1_0 : Memref sig .tc _ _ _).view.readAt (Elt F) (Rect.unit (s := S16384) ![0] S16384.size
      inb_S16384_S16384_0).toLoadRect = id := funext (Memref.readAt_unit_zero (Elt F) cc0_stg1_0 hz1 _)
  have hr11 : (Memref.whole cc0_stg1_1 : Memref sig .tc _ _ _).view.readAt (Elt F) (Rect.unit (s := S16384) ![0] S16384.size
      inb_S16384_S16384_0).toLoadRect = id := funext (Memref.readAt_unit_zero (Elt F) cc0_stg1_1 hz1 _)
  have hw20 : ∀ f w, (((Memref.whole cc0_stg2_0).access (Rect.unit (s := S16384x8) ![0, 0] S16384x8.size inb_S16384x8_S16384x8_0_0)) :
      View sig .tc _ _ _).write (Elt F) f w Finset.univ = w := Memref.write_access_unit_zero_univ (Elt F) cc0_stg2_0 hz2 _
  have hw21 : ∀ f w, (((Memref.whole cc0_stg2_1).access (Rect.unit (s := S16384x8) ![0, 0] S16384x8.size inb_S16384x8_S16384x8_0_0)) :
      View sig .tc _ _ _).write (Elt F) f w Finset.univ = w := Memref.write_access_unit_zero_univ (Elt F) cc0_stg2_1 hz2 _
  fin_cases s0 <;> fin_cases s1 <;> fin_cases s2 <;>
  · simp only [owns_whole_eq, cc0__tde_kernel_eq_skeleton]; unfold cc0__tde_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    simp only [hr00, hr01, hr10, hr11, hw20, hw21, id_eq]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-- The body obligation at every point: the input buffers arrive holding their blocks and leave holding them;
    the output buffer arrives holding anything and leaves holding the value formed from the two blocks — which
    is all that is stated of it, on the rows that are written back. -/
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := F) c Set.univ (grid0.coords t) (cfg0.slots t 0) (cfg0.slots t 1) (cfg0.slots t 2)
    (cur m c t) (nxt m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexact H0
  isplitl [H1]
  · iexact H1
  · iexists k0_pay1 (cur m c t) (nxt m c t)
    change _ ⊢ owns (c : Thread nD τ) (stage0_2 (cfg0.slots t 2)) fullShare
      (win0_2.fill (α := Elt F .f32) (grid0.coords t) (k0_pay1 (cur m c t) (nxt m c t))
        (win0_2.cut (α := Elt F .f32) (grid0.coords t) (k0_pay1 (cur m c t) (nxt m c t))))
    rw [win0_2.fill_cut]; try iexact H2

end Cert.KernelIdeal.Delay

end
-- ==== Proof.DelayIdeal.Run.lean ====
/-
  The whole run of the embedding kernel.

  The series is handed to the kernel twice, through two windows that read it at different blocks. Both
  only read, so each holds one half of the series' share for the whole run, and the halves rejoin at the
  end: the series ends as it began. The result array is held whole by its one window and ends at what
  the 1024 write-backs, in order, leave in it.
-/
import proofs.«179207_j40364102647834_2_alg».proof.Proof.DelayIdeal.Body
import Idealize.ShloMosaic.Lib.Pipeline.Launch

noncomputable section

namespace Cert.KernelIdeal.Delay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell's owner at round 0 and a duty token for every transfer issued. -/
def u₀ : UR sig nD τ := initOf (Pipeline.cells cfgs cellOf_inj) (Pipeline.launchToks cfgs cellOf_inj)

/-- At entry the two buffers behind the three windows — the series, the result — each whole at the full share,
    give each window its array at its share: the series' full share splits into the two halves the two reading
    windows hold. -/
theorem arrays_at_entry (c : Dev nD) :
    (Pipeline.arrBufs spec0 c (fun b => m ((c : Thread nD τ).loc b)) : sProp 𝕄)
      ⊢ (dats m 0 c).arrays ((dats m 0 c).arrAt · 0) := by
  have e : (dats m 0 c).arrays ((dats m 0 c).arrAt · 0)
      = bigSep Finset.univ fun w : Fin 3 => (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  have eB : (Pipeline.arrBufs spec0 c (fun b => m ((c : Thread nD τ).loc b)) : sProp 𝕄)
      = iprop((((c : Thread nD τ).loc main_arg0) ↦{fullShare} m ((c : Thread nD τ).loc main_arg0))
          ∗ (((c : Thread nD τ).loc main_v0) ↦{fullShare} m ((c : Thread nD τ).loc main_v0))) := by
    unfold Pipeline.arrBufs
    rw [show Finset.univ.image (Pipeline.arrRef spec0) = {main_arg0, main_v0} from by decide,
      bigSep_insert (by decide), bigSep_singleton]
    rfl
  rw [e, bigSep_W0, eB]
  iintro ⟨Hs, Ho⟩
  ihave Hs' := (pointsTo_share (PosShare.mem_left_op_right fullShare)).1 $$ Hs
  icases Hs' with ⟨H0, H1⟩
  isplitl [H0]; · iexact H0
  isplitl [H1]; · iexact H1
  iexact Ho

/-- An array's contents after the run, as the write-backs in point order leave them. -/
def finalA (c : Dev nD) (w : Fin cfg0.W) : Buf (Elt F) ((cfg0.win w).arr.view.loc (c : Thread nD τ)) :=
  (dats m 0 c).arrAt w cfg0.N

/-- The physical post: every window's array holds those contents. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- For any values, from any memory with zero counters: every weakly fair execution of the program terminates,
    faulting nowhere, with every window's array at the computed contents. -/
theorem run_main : θ_run defs (onTc (τ := τ) (main (F := F))) (s₀ m ρ) (QC m) :=
  Pipeline.θ_run_region_noSem_shared cfgs (dats m) () cellOf_inj (0 : Fin 1) winFacts₀0 EP defs₀ 𝒱₀ m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := arrays_at_entry m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The series is read only: after the run it holds what it held (read through either of its windows). -/
theorem finalA_series (c : Dev nD) : finalA m c (0 : Fin 3) = m ((c : Thread nD τ).loc main_arg0) :=
  (dats (F := F) m 0 c).arrAt_in (0 : Fin 3) rfl _

end Cert.KernelIdeal.Delay

end
-- ==== Proof.Payload.lean ====
import proofs.«179207_j40364102647834_2_alg».proof.Proof.Gen.KernelIdeal.Skeleton
import Idealize.ShloMosaic.Lib.ValueIdx
import Idealize.ShloMosaic.Lib.Pipeline.Value
import Idealize.ShloMosaic.Lib.ValueLayout

/-! # The stored payload read at an index

The kernel body stores one `[16384, 8]` array built from two loaded vectors: the current block `v0` and the next
block `v1` of a series, `16384` entries each. Column `k` of the array is the series moved on by `4 k` places: entry
`(r, k)` is `v0 (r + 4 k)` while `r + 4 k < 16384` and `v1 (r + 4 k - 16384)` from there on. The array is built by
layout operations only (slices, concatenations, a shape cast that adds a unit axis, a transpose), so each entry is ONE
entry of `v0` or `v1` and no arithmetic on the values occurs; the statement holds at every float type.

`slice1_apply` reads a slice of a vector at an index, `window_apply` a window that runs from one vector on into the
next, and `payload_apply` the whole payload, one column at a time. -/

namespace Cert.DelayEmbed.Body

open Cert.KernelIdeal Cert.KernelIdeal.Gen Idealize.ShloMosaic Idealize.ShloMosaic.ValueIdx

section Generic
variable {α : Type}

/-- A vector cut from position `o` reads, at `j`, the source at `k = o + j`. -/
theorem slice1_apply {N m : Nat} (o : Nat) (x : (⟨1, ![N]⟩ : Shape).Idx → α)
    (h : (⟨1, ![N]⟩ : Shape).Slices ![o] ⟨1, ![m]⟩) (j : Fin m) (k : Fin N) (hk : k.val = o + j.val) :
    extractStridedSlice ⟨1, ![m]⟩ ![o] x h (ix1 j) = x (ix1 k) :=
  extractStridedSlice_apply _ _ _ _ _ (fun ax => by
    match ax with
    | ⟨0, _⟩ => exact hk)

/-- The window of length `N` that starts `b` places into `x` and runs on into `y`: the last `a = N - b` entries of
    `x` followed by the first `b` entries of `y`. At `r` it reads `x (r + b)` while that stays inside `x`, and
    `y (r + b - N)` from there on. -/
theorem window_apply {N a b : Nat} (x y : (⟨1, ![N]⟩ : Shape).Idx → α)
    (hx : (⟨1, ![N]⟩ : Shape).Slices ![b] ⟨1, ![a]⟩) (hy : (⟨1, ![N]⟩ : Shape).Slices ![0] ⟨1, ![b]⟩)
    (hc : Shape.Concatenates [(⟨1, ![a]⟩ : Shape), ⟨1, ![b]⟩] ⟨1, ![N]⟩ 0) (hab : a + b = N) (r : Fin N) :
    concatenate ⟨1, ![N]⟩ 0
        [⟨⟨1, ![a]⟩, extractStridedSlice ⟨1, ![a]⟩ ![b] x hx⟩, ⟨⟨1, ![b]⟩, extractStridedSlice ⟨1, ![b]⟩ ![0] y hy⟩] hc (ix1 r)
      = if h : r.val + b < N then x (ix1 ⟨r.val + b, h⟩) else y (ix1 ⟨r.val + b - N, by omega⟩) := by
  by_cases h : r.val + b < N
  · rw [dif_pos h]
    have hra : r.val < a := by omega
    refine (concatenate_pair_apply_left (t := ⟨1, ![N]⟩) (s₁ := ⟨1, ![a]⟩) (s₂ := ⟨1, ![b]⟩) 0 _ _ hc (ix1 r) rfl
      (ix1 ⟨r.val, hra⟩) (fun c => by match c with | ⟨0, _⟩ => rfl)).trans ?_
    exact slice1_apply b x hx ⟨r.val, hra⟩ ⟨r.val + b, h⟩ (Nat.add_comm _ _)
  · rw [dif_neg h]
    have hrb : r.val - a < b := by omega
    refine (concatenate_pair_apply_right (t := ⟨1, ![N]⟩) (s₁ := ⟨1, ![a]⟩) (s₂ := ⟨1, ![b]⟩) 0 _ _ hc (ix1 r) rfl rfl
      (ix1 ⟨r.val - a, hrb⟩) (fun c hc' => by match c with | ⟨0, _⟩ => exact absurd rfl hc')
      (by show r.val - a + a = r.val; omega)).trans ?_
    exact slice1_apply 0 y hy ⟨r.val - a, hrb⟩ ⟨r.val + b - N, by omega⟩ (by show r.val + b - N = 0 + (r.val - a); omega)

end Generic

variable {F : FTy → Type} [FloatOps F]

/-- Entry `(r, k)` of the stored payload: column `k` is the series moved on by `4 k` places, read from the
    current block `v0` while `r + 4 k` stays inside it and from the next block `v1` from there on. The payload is the
    transpose of the eight columns laid as rows; column `0` is `v0` itself, column `k ≥ 1` the last `16384 - 4 k`
    entries of `v0` followed by the first `4 k` entries of `v1`. -/
theorem payload_apply (v0 v1 : Vec F S16384 .f32) (r : Fin 16384) (k : Fin 8) :
    k0_pay1 v0 v1 (ix2 r k)
      = if h : r.val + 4 * k.val < 16384 then v0 (ix1 ⟨r.val + 4 * k.val, h⟩)
        else v1 (ix1 ⟨r.val + 4 * k.val - 16384, by have := r.isLt; have := k.isLt; omega⟩) := by
  unfold k0_pay1
  refine (transpose_ix2_apply _ _ r k).trans ?_
  match k with
  | ⟨0, hk⟩ =>
    -- column 0 is the current block itself
    refine Eq.trans (concatenate_apply_piece (t := S8x16384) 0 _ _ (ix2 (⟨0, hk⟩ : Fin 8) r) 0
      (by show (0 : Nat) < 8; omega) S1x16384 _ (by rfl) (by rfl) 0 (by rfl) (ix2 (0 : Fin 1) r)
      (fun b hb => by match b with | ⟨0, _⟩ => exact absurd rfl hb | ⟨1, _⟩ => rfl) (by rfl)) ?_
    refine Eq.trans (shapeCast_a_1a_apply _ _ _ r) ?_
    have h : r.val + 4 * 0 < 16384 := by have := r.isLt; omega
    rw [dif_pos h]
    exact congrArg v0 (congrArg ix1 (Fin.ext (by show r.val = r.val + 4 * 0; omega)))
  | ⟨1, hk⟩ =>
    -- column 1: the window that starts 4 places into the current block
    refine Eq.trans (concatenate_apply_piece (t := S8x16384) 0 _ _ (ix2 (⟨1, hk⟩ : Fin 8) r) 1
      (by show (1 : Nat) < 8; omega) S1x16384 _ (by rfl) (by rfl) 1 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨2, hk⟩ =>
    -- column 2: the window that starts 8 places into the current block
    refine Eq.trans (concatenate_apply_piece (t := S8x16384) 0 _ _ (ix2 (⟨2, hk⟩ : Fin 8) r) 2
      (by show (2 : Nat) < 8; omega) S1x16384 _ (by rfl) (by rfl) 2 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨3, hk⟩ =>
    -- column 3: the window that starts 12 places into the current block
    refine Eq.trans (concatenate_apply_piece (t := S8x16384) 0 _ _ (ix2 (⟨3, hk⟩ : Fin 8) r) 3
      (by show (3 : Nat) < 8; omega) S1x16384 _ (by rfl) (by rfl) 3 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨4, hk⟩ =>
    -- column 4: the window that starts 16 places into the current block
    refine Eq.trans (concatenate_apply_piece (t := S8x16384) 0 _ _ (ix2 (⟨4, hk⟩ : Fin 8) r) 4
      (by show (4 : Nat) < 8; omega) S1x16384 _ (by rfl) (by rfl) 4 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨5, hk⟩ =>
    -- column 5: the window that starts 20 places into the current block
    refine Eq.trans (concatenate_apply_piece (t := S8x16384) 0 _ _ (ix2 (⟨5, hk⟩ : Fin 8) r) 5
      (by show (5 : Nat) < 8; omega) S1x16384 _ (by rfl) (by rfl) 5 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨6, hk⟩ =>
    -- column 6: the window that starts 24 places into the current block
    refine Eq.trans (concatenate_apply_piece (t := S8x16384) 0 _ _ (ix2 (⟨6, hk⟩ : Fin 8) r) 6
      (by show (6 : Nat) < 8; omega) S1x16384 _ (by rfl) (by rfl) 6 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨7, hk⟩ =>
    -- column 7: the window that starts 28 places into the current block
    refine Eq.trans (concatenate_apply_piece (t := S8x16384) 0 _ _ (ix2 (⟨7, hk⟩ : Fin 8) r) 7
      (by show (7 : Nat) < 8; omega) S1x16384 _ (by rfl) (by rfl) 7 (by rfl) (ix2 (0 : Fin 1) r)
      (fun b hb => by match b with | ⟨0, _⟩ => exact absurd rfl hb | ⟨1, _⟩ => rfl) (by rfl)) ?_
    refine Eq.trans (shapeCast_a_1a_apply _ _ _ r) ?_
    exact window_apply v0 v1 _ _ _ rfl r
  | ⟨n + 8, hk⟩ => exact absurd hk (by omega)

end Cert.DelayEmbed.Body
-- ==== Proof.Spec.lean ====
/-
  The time-delay embedding as one function of the series.

  A series `ts` of 2^24 samples is embedded in dimension 8 with delay 4 and skip 1: row `j` of the
  result (there are 2^24 - 28 rows, the last one whose eight samples all lie inside the series being
  row 2^24 - 29) lists the samples `ts (j)`, `ts (j + 4)`, …, `ts (j + 28)`; entry `(j, k)` is
  `ts (j + 4 k)`. No arithmetic is done on the samples, so the function is stated over any type of
  values.
-/
import Idealize.ShloMosaic.Lib.ValueIdx

namespace Cert.DelayEmbed

open Idealize.ShloMosaic Idealize.ShloMosaic.ValueIdx

/-- The series: 2^24 samples. -/
abbrev Series : Shape := ⟨1, ![16777216]⟩
/-- The embedding: 2^24 - 28 rows of 8 samples. -/
abbrev Rows : Shape := ⟨2, ![16777188, 8]⟩

/-- Entry `(j, k)` reads sample `j + 4 k`, which lies inside the series: `j ≤ 2^24 - 29` and `k ≤ 7`. -/
theorem src_lt (i : Rows.Idx) : (i 0).val + 4 * (i 1).val < 16777216 := by
  have h0 := idx2_lt0 i
  have h1 := idx2_lt1 i
  omega

/-- The embedding of `ts`: entry `(j, k)` is `ts (j + 4 k)`. -/
def embed {α : Type} (ts : Series.Idx → α) : Rows.Idx → α :=
  fun i => ts (ix1 ⟨(i 0).val + 4 * (i 1).val, src_lt i⟩)

theorem embed_apply {α : Type} (ts : Series.Idx → α) (i : Rows.Idx) :
    embed ts i = ts (ix1 ⟨(i 0).val + 4 * (i 1).val, src_lt i⟩) := rfl

end Cert.DelayEmbed
-- ==== Proof.DelayIdeal.Value.lean ====
/-
  The result of the embedding kernel is the embedding.

  At point `t` the kernel's two input blocks are samples `16384 t … 16384 t + 16383` of the series and
  the 16384 samples after them (at the last point, the same block again). Entry `(r, k)` of the value
  it stores reads position `r + 4 k` of the first block while that is inside the block and runs on
  into the second block otherwise: sample `16384 t + r + 4 k` of the series either way — at the last
  point only rows `r < 16356` are written back, and for those `r + 4 k ≤ 16383` never leaves the first
  block. The row written is row `16384 t + r` of the result, whose entry `k` the embedding defines as
  that very sample. The 1024 blocks, the last one cut to 16356 rows, cover the result's 2^24 - 28 rows.
-/
import proofs.«179207_j40364102647834_2_alg».proof.Proof.DelayIdeal.Run
import proofs.«179207_j40364102647834_2_alg».proof.Proof.Payload
import proofs.«179207_j40364102647834_2_alg».proof.Proof.Spec
import Idealize.ShloMosaic.Lib.Pipeline.Value

noncomputable section

namespace Cert.KernelIdeal.Delay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

open Cert.DelayEmbed Cert.DelayEmbed.Body Idealize.ShloMosaic.ValueIdx

variable (m : (ℓ : Loc nD τ sig) → Buf (Elt F) ℓ) (ρ : Dev nD → PrngReg)

/-- The printed index maps and cuts, decided over the 1024 points: the first input window is at block `t`, the
    second at block `min (t + 1) 1023`, the output at block `(t, 0)`, cut to 16356 rows at the last point only. -/
theorem idx_facts : ∀ t : Fin cfg0.N,
    win0_0.index t (0 : Fin 1) = t.val
    ∧ win0_1.index t (0 : Fin 1) = min (t.val + 1) 1023
    ∧ win0_2.index t (0 : Fin 2) = t.val
    ∧ win0_2.index t (1 : Fin 2) = 0
    ∧ win0_2.xsize (grid0.coords t) (0 : Fin 2) = (if t.val = 1023 then 16356 else 16384)
    ∧ win0_2.xsize (grid0.coords t) (1 : Fin 2) = 8 :=
  (by decide +kernel : ∀ t : Fin grid0.N, _)

theorem point_lt (t : Fin cfg0.N) : t.val < 1024 := N_0 ▸ t.isLt

/-- Position `p` of block `b` is inside the series. -/
theorem blk_lt (b : Nat) (hb : b < 1024) (p : Fin 16384) : b * 16384 + p.val < 16777216 := by
  have := p.isLt; omega

theorem next_lt (b : Nat) : min (b + 1) 1023 < 1024 := by omega

/-- The sample entry `(j, k)` reads is inside the series, for a row `j` the embedding has. -/
theorem sample_lt (j k : Nat) (hj : j < 16777188) (hk : k < 8) : j + 4 * k < 16777216 := by omega

/-- Position `p` of the first input block at point `t` is sample `16384 t + p`. -/
theorem cur_apply (c : Dev nD) (t : Fin cfg0.N) (p : Fin 16384) :
    cur m c t (ix1 p) = m ((c : Thread nD τ).loc main_arg0) (ix1 ⟨t.val * 16384 + p.val, blk_lt t.val (point_lt t) p⟩) := by
  obtain ⟨e0, -⟩ := idx_facts t
  show m ((c : Thread nD τ).loc main_arg0) ((win0_0.blk t).view.emb (ix1 p)) = _
  refine congrArg (m ((c : Thread nD τ).loc main_arg0)) (funext fun a => Fin.ext ?_)
  match a with
  | ⟨0, _⟩ => show win0_0.index t (0 : Fin 1) * 16384 + 1 * p.val = t.val * 16384 + p.val; rw [e0]; omega

/-- Position `p` of the second input block at point `t` is sample `16384 min (t + 1) 1023 + p`. -/
theorem nxt_apply (c : Dev nD) (t : Fin cfg0.N) (p : Fin 16384) :
    nxt m c t (ix1 p) = m ((c : Thread nD τ).loc main_arg0) (ix1 ⟨min (t.val + 1) 1023 * 16384 + p.val, blk_lt _ (next_lt t.val) p⟩) := by
  obtain ⟨-, e1, -⟩ := idx_facts t
  show m ((c : Thread nD τ).loc main_arg0) ((win0_1.blk t).view.emb (ix1 p)) = _
  refine congrArg (m ((c : Thread nD τ).loc main_arg0)) (funext fun a => Fin.ext ?_)
  match a with
  | ⟨0, _⟩ => show win0_1.index t (0 : Fin 1) * 16384 + 1 * p.val = min (t.val + 1) 1023 * 16384 + p.val; rw [e1]; omega

/-- ONE ENTRY OF THE STORED VALUE: with the two blocks at block `b` and at block `min (b + 1) 1023` of a series,
    entry `(r, k)` of the value formed from them is sample `16384 b + r + 4 k`, for every row `16384 b + r` the
    embedding has. -/
theorem entry_eq (ts : S16777216.Idx → Elt F .f32) (v0 v1 : Vec F S16384 .f32) (b : Nat) (hb : b < 1024)
    (h0 : ∀ p : Fin 16384, v0 (ix1 p) = ts (ix1 ⟨b * 16384 + p.val, blk_lt b hb p⟩))
    (h1 : ∀ p : Fin 16384, v1 (ix1 p) = ts (ix1 ⟨min (b + 1) 1023 * 16384 + p.val, blk_lt _ (next_lt b) p⟩))
    (r : Fin 16384) (k : Fin 8) (hrow : b * 16384 + r.val < 16777188) :
    k0_pay1 v0 v1 (ix2 r k) = ts (ix1 ⟨b * 16384 + r.val + 4 * k.val, sample_lt _ _ hrow k.isLt⟩) := by
  rw [payload_apply]
  split
  · rw [h0]; exact congrArg ts (congrArg ix1 (Fin.ext (by show b * 16384 + (r.val + 4 * k.val) = b * 16384 + r.val + 4 * k.val; omega)))
  · rw [h1]; refine congrArg ts (congrArg ix1 (Fin.ext ?_))
    show min (b + 1) 1023 * 16384 + (r.val + 4 * k.val - 16384) = b * 16384 + r.val + 4 * k.val
    have := k.isLt
    omega

/-- WHAT POINT `t` WRITES BACK is block `t` of the embedding of the series, cut at the result's end. -/
theorem flushed_eq (c : Dev nD) (t : Fin cfg0.N) :
    (dats m 0 c).flushed (2 : Fin 3) t
      = ((cfg0.win 2).blk t).view.read (Elt F) (embed (m ((c : Thread nD τ).loc main_arg0))) := by
  obtain ⟨e0, e1, e2, e3, e4, e5⟩ := idx_facts t
  have ht := point_lt t
  funext j
  have hj0 : (j 0).val < win0_2.xsize (grid0.coords t) (0 : Fin 2) := (j 0).isLt
  have hj1 : (j 1).val < win0_2.xsize (grid0.coords t) (1 : Fin 2) := (j 1).isLt
  rw [e4] at hj0; rw [e5] at hj1
  have hr : (j 0).val < 16384 := by split at hj0 <;> omega
  have hrow : t.val * 16384 + (j 0).val < 16777188 := by split at hj0 <;> omega
  rw [View.read_apply, embed_apply]
  show k0_pay1 (cur m c t) (nxt m c t) (win0_2.xinj (grid0.coords t) j) = _
  rw [show win0_2.xinj (grid0.coords t) j = ix2 (⟨(j 0).val, hr⟩ : Fin 16384) (⟨(j 1).val, hj1⟩ : Fin 8) from
    funext fun a => by match a with | ⟨0, _⟩ => rfl | ⟨1, _⟩ => rfl]
  rw [entry_eq (m ((c : Thread nD τ).loc main_arg0)) (cur m c t) (nxt m c t) t.val ht (cur_apply m c t) (nxt_apply m c t) _ _ hrow]
  refine congrArg _ (congrArg ix1 (Fin.ext ?_))
  show t.val * 16384 + (j 0).val + 4 * (j 1).val
    = (win0_2.index t (0 : Fin 2) * 16384 + 1 * (j 0).val) + 4 * (win0_2.index t (1 : Fin 2) * 8 + 1 * (j 1).val)
  rw [e2, e3]; omega

/-- An entry of the result is in point `t`'s block iff, on each axis, it lies in the block's part inside the result. -/
theorem mem_blk (t : Fin cfg0.N) (i : S16777188x8.Idx) :
    i ∈ ((cfg0.win 2).blk t).view.set ↔ ∀ a : Fin 2, win0_2.index t a * S16384x8.size a ≤ (i a).val
      ∧ (i a).val < win0_2.index t a * S16384x8.size a + win0_2.xsize (grid0.coords t) a := by
  show i ∈ ((View.whole main_v0).slice (win0_2.rect t)).set ↔ _
  rw [View.set_slice_whole, Rect.mem_set_unit]
  exact Iff.rfl

/-- THE COVER: row `j` of the result is in the block of point `j / 16384`. -/
theorem covered (i : S16777188x8.Idx) :
    ∃ t : Fin cfg0.N, (cfg0.win 2).flush t = true ∧ i ∈ ((cfg0.win 2).blk t).view.set := by
  have hi0 : (i 0).val < 16777188 := idx2_lt0 i
  have hi1 : (i 1).val < 8 := idx2_lt1 i
  have hN : (i 0).val / 16384 < cfg0.N := by rw [show cfg0.N = 1024 from N_0]; omega
  obtain ⟨e0, e1, e2, e3, e4, e5⟩ := idx_facts ⟨(i 0).val / 16384, hN⟩
  refine ⟨⟨(i 0).val / 16384, hN⟩, flush0_2 _, (mem_blk _ i).mpr fun a => ?_⟩
  match a with
  | ⟨0, _⟩ =>
    show win0_2.index ⟨(i 0).val / 16384, hN⟩ (0 : Fin 2) * 16384 ≤ (i 0).val
      ∧ (i 0).val < win0_2.index ⟨(i 0).val / 16384, hN⟩ (0 : Fin 2) * 16384 + win0_2.xsize (grid0.coords ⟨(i 0).val / 16384, hN⟩) (0 : Fin 2)
    rw [e2, e4]
    show (i 0).val / 16384 * 16384 ≤ (i 0).val
      ∧ (i 0).val < (i 0).val / 16384 * 16384 + (if (i 0).val / 16384 = 1023 then 16356 else 16384)
    split <;> omega
  | ⟨1, _⟩ =>
    show win0_2.index ⟨(i 0).val / 16384, hN⟩ (1 : Fin 2) * 8 ≤ (i 1).val
      ∧ (i 1).val < win0_2.index ⟨(i 0).val / 16384, hN⟩ (1 : Fin 2) * 8 + win0_2.xsize (grid0.coords ⟨(i 0).val / 16384, hN⟩) (1 : Fin 2)
    rw [e3, e5]; omega

/-- THE RESULT after the run is the embedding of the series. -/
theorem final_result (c : Dev nD) : finalA m c (2 : Fin 3) = embed (m ((c : Thread nD τ).loc main_arg0)) :=
  (dats m 0 c).arrAt_eq_of_cover (2 : Fin 3) _ (fun t _ => flushed_eq m c t) covered

/-- THE RUN, READ: every weakly fair execution terminates, faulting nowhere, with the result at the embedding of
    the series and the series unchanged. -/
theorem run : θ_run defs (onTc (τ := τ) (main (F := F))) ⟨m, fun _ => 0, ρ⟩ fun r => ∀ c : Dev nD,
      r.2.mem ((c : Thread nD τ).loc main_v0) = embed (m ((c : Thread nD τ).loc main_arg0))
      ∧ r.2.mem ((c : Thread nD τ).loc main_arg0) = m ((c : Thread nD τ).loc main_arg0) :=
  (θ_run defs _ _).mono (fun r h c => ⟨(h c (2 : Fin 3)).trans (final_result m c), (h c (0 : Fin 3)).trans (finalA_series m c)⟩)
    (run_main m ρ)

end Cert.KernelIdeal.Delay

end
-- ==== Proof.RefEmbed.lean ====
/-
  The reference program computes the time-delay embedding.

  The program builds, for every entry (j, k) of the result, the 32-bit word j * 1 + k * 4, adds the
  length of the series where that word reads as a negative number, and gathers the series at the
  resulting position, clamped into the series. Here j < 2^24 - 28 and k < 8, so j + 4 k < 2^24: the
  word is the number j + 4 k without any wrap, it is not negative, and the clamp leaves it alone.
  Hence entry (j, k) of the result is sample j + 4 k of the series.
-/
import proofs.«179207_j40364102647834_2_alg».proof.Proof.Spec
import proofs.«179207_j40364102647834_2_alg».proof.Proof.Gen.ReferenceIdeal.Read
import Idealize.ShloMosaic.Lib.ValueIdx

noncomputable section

namespace Cert.DelayEmbed.Ref

open Cert.ReferenceIdeal Cert.ReferenceIdeal.Gen Cert.ReferenceIdeal.Read
open Idealize.ShloMosaic Idealize.ShloMosaic.ValueIdx

variable {F : FTy → Type} [FloatOps F]

/-! ## 32-bit words of small numbers -/

/-- For j < 2^24 - 28 and k < 8 the word j * 1 + k * 4 is the word of the number j + 4 k: nothing wraps. -/
theorem word_eq (j k : Nat) (hj : j < 16777188) (hk : k < 8) :
    IntOp.addi (IntOp.muli (BitVec.ofNat 32 j) 1#32) (IntOp.muli (BitVec.ofNat 32 k) 4#32)
      = BitVec.ofNat 32 (j + 4 * k) := by
  apply BitVec.eq_of_toNat_eq
  show (BitVec.ofNat 32 j * 1#32 + BitVec.ofNat 32 k * 4#32).toNat = (BitVec.ofNat 32 (j + 4 * k)).toNat
  simp only [BitVec.toNat_add, BitVec.toNat_mul, BitVec.toNat_ofNat]
  omega

/-- A number below 2^31, as a 32-bit word read signed, is that number. -/
theorem toInt_word (n : Nat) (hn : n < 2 ^ 31) : (BitVec.ofNat 32 n).toInt = (n : Int) := by
  have e : (BitVec.ofNat 32 n).toNat = n := by
    rw [BitVec.toNat_ofNat]; exact Nat.mod_eq_of_lt (by omega)
  rw [BitVec.toInt_eq_toNat_cond, e]
  split <;> omega

/-- The word of a number below 2^31 is not negative: the signed comparison with zero gives the bit 0. -/
theorem slt_zero_word (n : Nat) (hn : n < 2 ^ 31) : IntOp.cmpi .slt (BitVec.ofNat 32 n) 0#32 = 0#1 := by
  have hlt : (BitVec.ofNat 32 n).slt 0#32 = false := by
    simp only [BitVec.slt, BitVec.toInt_zero, decide_eq_false_iff_not, Int.not_lt]
    rw [toInt_word n hn]; omega
  show BitVec.ofBool ((BitVec.ofNat 32 n).slt 0#32) = 0#1
  rw [hlt]; rfl

/-! ## The index the program gathers at -/

/-- The sum stage at (j, k) is the word of j + 4 k. -/
theorem sum_word (i : S16777188x8.Idx) :
    val_main_v10 (F := F) i = BitVec.ofNat 32 ((i 0).val + 4 * (i 1).val) := by
  rw [val_main_v10_apply, val_main_v8_apply, val_main_v9_apply, val_main_v3_apply, val_main_v7_apply,
    val_main_v1_apply, val_main_v2_apply, val_main_v5_apply, val_main_v6_apply, val_main_v0_apply,
    val_main_v4_apply, val_main_c_apply, val_main_c_0_apply]
  exact word_eq (i 0).val (i 1).val (idx2_lt0 i) (idx2_lt1 i)

/-- The wrap of negative indices changes nothing: the selected index at (j, k) is still the word of j + 4 k. -/
theorem index_word (i : S16777188x8.Idx) :
    val_main_v15 (F := F) i = BitVec.ofNat 32 ((i 0).val + 4 * (i 1).val) := by
  have h0 := idx2_lt0 i
  have h1 := idx2_lt1 i
  rw [val_main_v15_apply, val_main_v12_apply, val_main_v11_apply, val_main_c_1_apply, sum_word,
    slt_zero_word _ (by omega), select_zero]

/-- The start index the gather reads for entry (j, k) is the word of j + 4 k. -/
theorem start_word (i : S16777188x8.Idx) :
    val_main_v16 (F := F) (takeIdx i) = BitVec.ofNat 32 ((i 0).val + 4 * (i 1).val) := by
  rw [val_main_v16_apply]
  exact index_word (idx_main_v16 (takeIdx i))

/-! ## The gather -/

/-- THE REFERENCE IS THE EMBEDDING: for any values, the array the reference program returns on the series
    `ts` is the time-delay embedding of `ts`; entry (j, k) is `ts (j + 4 k)`. -/
theorem reference_is_embed (ts : (⟨Cert.ReferenceIdeal.S16777216, .f32⟩ : BufTy).Contents (Elt F)) :
    Cert.ReferenceIdeal.Read.val_main_v17 (F := F) ts = Cert.DelayEmbed.embed ts := by
  funext i
  have h0 := idx2_lt0 i
  have h1 := idx2_lt1 i
  show Host.gather (takeDims 16777216 16777188 8 gather_S16777216_S16777188x8x1_S16777188x8_n_0_n_n_0_2_1_wf)
      ts (val_main_v16 (F := F)) i = _
  rw [gather_take_apply (by decide), embed_apply]
  refine congrArg ts (congrArg ix1 (Fin.ext ?_))
  show min (val_main_v16 (F := F) (takeIdx i)).toInt.toNat (16777216 - 1) = (i 0).val + 4 * (i 1).val
  rw [start_word, toInt_word _ (by omega)]
  omega

end Cert.DelayEmbed.Ref

end
-- ==== Proof.lean ====
/-
  A time-delay embedding kernel against its reference: both compute, from a series `ts` of 2^24
  samples, the array of 2^24 - 28 rows whose entry `(j, k)`, `k < 8`, is `ts (j + 4 k)`.

  The reference forms the index `j + 4 k` as a 32-bit number and gathers the series there; the numbers
  involved are below 2^24, so nothing wraps, nothing is negative and the gather's clamp is idle.
  The kernel walks the series in 1024 blocks of 16384 samples; at block `t` it holds that block and
  the next one, lays column `k` out as the block moved on by `4 k` places (running on into the next
  block), and writes the 16384 rows back; the last block's final 28 rows, which would need samples past
  the series' end, lie outside the result and are never written. Neither program does any arithmetic on
  the samples, so the two results agree for every value a sample may take, and the precondition that
  the samples are finite is never used.

  The kernel reads the series through two windows; each holds half of the series' share during the run
  and the series ends as it began. That run is proved once for any reading of the floats and used both
  for the program as printed and for its idealization; the idealization rewrote nothing.
-/
import proofs.«179207_j40364102647834_2_alg».proof.Defs
import proofs.«179207_j40364102647834_2_alg».proof.Proof.Gen.Kernel
import proofs.«179207_j40364102647834_2_alg».proof.Proof.Gen.Kernel.Skeleton
import proofs.«179207_j40364102647834_2_alg».proof.Proof.Gen.Kernel.Launch
import proofs.«179207_j40364102647834_2_alg».proof.Proof.Gen.Kernel.Points
import proofs.«179207_j40364102647834_2_alg».proof.Proof.Gen.KernelIdeal
import proofs.«179207_j40364102647834_2_alg».proof.Proof.Gen.KernelIdeal.Skeleton
import proofs.«179207_j40364102647834_2_alg».proof.Proof.Gen.KernelIdeal.Launch
import proofs.«179207_j40364102647834_2_alg».proof.Proof.Gen.KernelIdeal.Points
import proofs.«179207_j40364102647834_2_alg».proof.Proof.Gen.ReferenceIdeal
import proofs.«179207_j40364102647834_2_alg».proof.Proof.Gen.Pre_finite_inputs
import proofs.«179207_j40364102647834_2_alg».proof.Proof.Gen.ReferenceIdeal.Run
import proofs.«179207_j40364102647834_2_alg».proof.Proof.Gen.ReferenceIdeal.Read
import proofs.«179207_j40364102647834_2_alg».proof.Proof.DelayBits.Run
import proofs.«179207_j40364102647834_2_alg».proof.Proof.DelayIdeal.Value
import proofs.«179207_j40364102647834_2_alg».proof.Proof.RefEmbed
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves the series as it found it. -/
theorem frame_kernel : Cert.frame_Kernel := fun m ρ _ =>
  (θ_run Cert.Kernel.defs _ _).mono
    (fun _ h c => (h c (0 : Fin 3)).trans (Cert.Kernel.Delay.finalA_series m c))
    (Cert.Kernel.Delay.run_main (F := Bits) m ρ)

/-- So does its idealization. -/
theorem frame_kernelIdeal : Cert.frame_KernelIdeal := fun m ρ _ =>
  (θ_run Cert.KernelIdeal.defs _ _).mono (fun _ h c => (h c).2) (Cert.KernelIdeal.Delay.run (F := Ideal) m ρ)

/-- So does the reference. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the series, the idealized kernel and the idealized reference both end with the
    embedding of that series as their result, and with the series unchanged. -/
theorem algebraic : Cert.algebraic_KernelIdeal_ReferenceIdeal := by
  intro m ρ m' ρ' _ hagree
  refine ⟨fun c => Cert.DelayEmbed.embed (m ((c.tc : Thread Cert.KernelIdeal.nD Cert.KernelIdeal.τ).loc Cert.KernelIdeal.main_arg0)),
    Cert.KernelIdeal.Delay.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.DelayEmbed.Ref.reference_is_embed, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
